-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128 .f32) (main_arg5 : FVec F S128x128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x256 : Shape := ⟨2, ![128, 256]⟩
abbrev S_ : Shape := ⟨0, ![]⟩
abbrev S1x128 : Shape := ⟨2, ![1, 128]⟩
abbrev S1x256 : Shape := ⟨2, ![1, 256]⟩
abbrev S2000x128 : Shape := ⟨2, ![2000, 128]⟩
abbrev S2000x256 : Shape := ⟨2, ![2000, 256]⟩
abbrev S400x10000 : Shape := ⟨2, ![400, 10000]⟩
abbrev S400x128 : Shape := ⟨2, ![400, 128]⟩
abbrev S400x256 : Shape := ⟨2, ![400, 256]⟩

abbrev nBuf : Space → Nat
  | .hbm => 23
  | .vmem => 26
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128x256, .bf16⟩
  | .hbm, ⟨10, _⟩ => ⟨S128x256, .f32⟩
  | .hbm, ⟨11, _⟩ => ⟨S128x256, .bf16⟩
  | .hbm, ⟨12, _⟩ => ⟨S_, .f32⟩
  | .hbm, ⟨13, _⟩ => ⟨S1x128, .f32⟩
  | .hbm, ⟨14, _⟩ => ⟨S1x128, .f32⟩
  | .hbm, ⟨15, _⟩ => ⟨S1x256, .f32⟩
  | .hbm, ⟨16, _⟩ => ⟨S1x128, .f32⟩
  | .hbm, ⟨17, _⟩ => ⟨S1x256, .f32⟩
  | .hbm, ⟨18, _⟩ => ⟨S10000x128, .bf16⟩
  | .hbm, ⟨19, _⟩ => ⟨S10000x128, .f32⟩
  | .hbm, ⟨20, _⟩ => ⟨S10000x128, .bf16⟩
  | .hbm, ⟨21, _⟩ => ⟨S10000x128, .f32⟩
  | .hbm, ⟨22, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x256, .bf16⟩
  | .local _ .vmem, ⟨3, _⟩ => ⟨S1x256, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S400x10000, .f32⟩
  | .local _ .vmem, ⟨9, _⟩ => ⟨S400x10000, .f32⟩
  | .local _ .vmem, ⟨10, _⟩ => ⟨S10000x128, .bf16⟩
  | .local _ .vmem, ⟨11, _⟩ => ⟨S400x128, .f32⟩
  | .local _ .vmem, ⟨12, _⟩ => ⟨S400x128, .f32⟩
  | .local _ .vmem, ⟨13, _⟩ => ⟨S128x256, .bf16⟩
  | .local _ .vmem, ⟨14, _⟩ => ⟨S1x256, .f32⟩
  | .local _ .vmem, ⟨15, _⟩ => ⟨S400x128, .bf16⟩
  | .local _ .vmem, ⟨16, _⟩ => ⟨S400x128, .bf16⟩
  | .local _ .vmem, ⟨17, _⟩ => ⟨S400x128, .f32⟩
  | .local _ .vmem, ⟨18, _⟩ => ⟨S400x128, .f32⟩
  | .local _ .vmem, ⟨19, _⟩ => ⟨S400x10000, .f32⟩
  | .local _ .vmem, ⟨20, _⟩ => ⟨S400x10000, .f32⟩
  | .local _ .vmem, ⟨21, _⟩ => ⟨S10000x128, .bf16⟩
  | .local _ .vmem, ⟨22, _⟩ => ⟨S400x128, .f32⟩
  | .local _ .vmem, ⟨23, _⟩ => ⟨S400x128, .f32⟩
  | .local _ .vmem, ⟨24, _⟩ => ⟨S400x128, .f32⟩
  | .local _ .vmem, ⟨25, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_cst : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9_0 : Ref sig .tc := ⟨.hbm, 18, rfl⟩
abbrev main_call0_v9_1 : Ref sig .tc := ⟨.hbm, 19, rfl⟩
abbrev main_call0_v10_0 : Ref sig .tc := ⟨.hbm, 20, rfl⟩
abbrev main_call0_v10_1 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S128x128_S128x128_S128x256_d1 : Shape.Concatenates [S128x128, S128x128] S128x256 1
  bitsLt_bf16_f32 : FTy.bits .bf16 < FTy.bits .f32
  bcast_S_S1x128 : S_.BroadcastsInDim S1x128 (![] : Fin 0 → Fin S1x128.rank)
  shapeCasts_S128_S1x128 : S128.ShapeCasts S1x128
  concatenates_S1x128_S1x128_S1x256_d1 : Shape.Concatenates [S1x128, S1x128] S1x256 1
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x128 : S2000x256.Slices ![0, 0] S2000x128
  packedbf16_S2000x128_S2000x128_0_0 : (Rect.unit (s := S2000x128) ![0, 0] S2000x128.size inb_S2000x128_S2000x128_0_0).PackedRows (EltTy.packing .bf16)
  slices_S2000x256_o0_128_S2000x128 : S2000x256.Slices ![0, 128] S2000x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  shapeCasts_S400x128_S400x128 : S400x128.ShapeCasts S400x128
  broadcasts_S1x256_S400x256 : S1x256.Broadcasts S400x256
  slices_S400x256_o0_0_S400x128 : S400x256.Slices ![0, 0] S400x128
  packedbf16_S400x128_S400x128_0_0 : (Rect.unit (s := S400x128) ![0, 0] S400x128.size inb_S400x128_S400x128_0_0).PackedRows (EltTy.packing .bf16)
  slices_S400x256_o0_128_S400x128 : S400x256.Slices ![0, 128] S400x128
  dot_S2000x128_S128x256_S2000x256_1_0_0_1_n_n_wf : DotDims.WF S2000x128 S128x256 S2000x256 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .bf16 = 32 ∨ (Rect.block (s := S10000x128) S2000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)

variable [Facts₀]

def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v9_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v9_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v9_1) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v3) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v10_0) S400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_call0_v10_1) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v10_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v10_1) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S10000x128, .f32⟩
  | .hbm, ⟨9, _⟩ => ⟨S1x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S10000x128, .f32⟩
  | .hbm, ⟨24, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.HgcnSpec.lean ====
/-
  The mathematics both programs compute: a two-layer dense hypergraph convolution over 10000 nodes with
  128 features per node, on the extended reals.

    support₁ = x · W₁ + b₁                (an affine map of the node features, the bias added to every row)
    hidden   = max (G · support₁ + x · SW₁, 0)
    support₂ = hidden · W₂ + b₂
    result   = G · support₂ + hidden · SW₂

  Every matrix product is a finite sum over the contracted axis; nothing here needs the entries to be finite.
  The functions are stated index by index over the literal shapes, with indices built from their coordinates,
  so that a row of a block and a row of the whole array are compared by arithmetic on coordinates alone.
-/
import Idealize.ShloMosaic.PureOps.Ideal
import Idealize.ShloMosaic.Lib.ValueIdx

noncomputable section

open scoped BigOperators

namespace Cert.Hgcn

open Idealize.ShloMosaic Idealize.ShloMosaic.ValueIdx

/-- A node-feature matrix: one row of 128 features per node. -/
abbrev Feat : Type := (⟨2, ![10000, 128]⟩ : Shape).Idx → EReal
/-- The dense incidence matrix between nodes. -/
abbrev Adj : Type := (⟨2, ![10000, 10000]⟩ : Shape).Idx → EReal
/-- A square weight matrix on the features. -/
abbrev Wt : Type := (⟨2, ![128, 128]⟩ : Shape).Idx → EReal
/-- A bias, one entry per feature. -/
abbrev Bias : Type := (⟨1, ![128]⟩ : Shape).Idx → EReal

/-- Row `r` of `A` against column `c` of `W`: the entry of the product `A · W`. -/
def projAt (A : Feat) (W : Wt) (r : Fin 10000) (c : Fin 128) : EReal :=
  ∑ d : Fin 128, A (ix2 r d) * W (ix2 d c)

/-- `A · W`. -/
def proj (A : Feat) (W : Wt) : Feat := fun i => projAt A W (i 0) (i 1)

/-- `A · W + b`, the bias added to every row. -/
def support (A : Feat) (W : Wt) (b : Bias) : Feat := fun i => projAt A W (i 0) (i 1) + b (ix1 (i 1))

/-- Row `r` of `G` against column `c` of `S`: the entry of `G · S`, a sum over all 10000 nodes. -/
def aggAt (G : Adj) (S : Feat) (r : Fin 10000) (c : Fin 128) : EReal :=
  ∑ k : Fin 10000, G (ix2 r k) * S (ix2 k c)

/-- `G · S + P`: the aggregation over the hypergraph plus the self-loop term. -/
def conv (G : Adj) (S P : Feat) : Feat := fun i => aggAt G S (i 0) (i 1) + P i

/-- The rectifier, entry by entry. -/
def relu (X : Feat) : Feat := fun i => max (X i) 0

/-- The first layer's output. -/
def hidden (x : Feat) (G : Adj) (W1 SW1 : Wt) (b1 : Bias) : Feat :=
  relu (conv G (support x W1 b1) (proj x SW1))

/-- The network's result as ONE function of its eight arguments. -/
def result (x : Feat) (G : Adj) (W1 SW1 : Wt) (b1 : Bias) (W2 SW2 : Wt) (b2 : Bias) : Feat :=
  conv G (support (hidden x G W1 SW1 b1) W2 b2) (proj (hidden x G W1 SW1 b1) SW2)

theorem proj_ix2 (A : Feat) (W : Wt) (r : Fin 10000) (c : Fin 128) : proj A W (ix2 r c) = projAt A W r c := rfl

theorem support_ix2 (A : Feat) (W : Wt) (b : Bias) (r : Fin 10000) (c : Fin 128) :
    support A W b (ix2 r c) = projAt A W r c + b (ix1 c) := rfl

theorem conv_ix2 (G : Adj) (S P : Feat) (r : Fin 10000) (c : Fin 128) :
    conv G S P (ix2 r c) = aggAt G S r c + P (ix2 r c) := rfl

theorem relu_ix2 (X : Feat) (r : Fin 10000) (c : Fin 128) : relu X (ix2 r c) = max (X (ix2 r c)) 0 := rfl

end Cert.Hgcn

end
-- ==== Proof.Packed.lean ====
/-
  The kernel multiplies by two weight matrices at once: it packs `W` and `SW` side by side into one 128 × 256
  matrix `[W | SW]` and the bias into one 1 × 256 row `[b | 0]`, forms `A · [W | SW] + [b | 0]` in one product, and
  keeps the low 128 columns as the support and the high 128 columns as the self-loop term. Column `q` of the low
  half is `A · W + b` at `q`; column `128 + q` of the high half is `A · SW + 0`, and adding zero changes no
  extended real. So the two halves are the specification's `support` and `proj`.
-/
import proofs.«177763_g5179730559512_cont_sun_m_342_3_alg».proof.Proof.HgcnSpec

noncomputable section

open scoped BigOperators

namespace Cert.Hgcn

open Idealize.ShloMosaic Idealize.ShloMosaic.ValueIdx

/-- Two weight matrices side by side. -/
abbrev Wt2 : Type := (⟨2, ![128, 256]⟩ : Shape).Idx → EReal
/-- A bias row padded to 256 columns. -/
abbrev Bias2 : Type := (⟨2, ![1, 256]⟩ : Shape).Idx → EReal

/-- Column `q` of the low half. -/
def lo (q : Fin 128) : Fin 256 := ⟨q.val, by omega⟩
/-- Column `q` of the high half. -/
def hi (q : Fin 128) : Fin 256 := ⟨128 + q.val, by omega⟩

/-- Row `r` of `A` against column `c` of the packed matrix, plus the packed bias at `c`. -/
def packedAt (A : Feat) (Wc : Wt2) (bc : Bias2) (r : Fin 10000) (c : Fin 256) : EReal :=
  (∑ d : Fin 128, A (ix2 r d) * Wc (ix2 d c)) + bc (ix2 (0 : Fin 1) c)

/-- The low 128 columns of `A · Wc + bc`. -/
def packedLo (A : Feat) (Wc : Wt2) (bc : Bias2) : Feat := fun i => packedAt A Wc bc (i 0) (lo (i 1))
/-- The high 128 columns of `A · Wc + bc`. -/
def packedHi (A : Feat) (Wc : Wt2) (bc : Bias2) : Feat := fun i => packedAt A Wc bc (i 0) (hi (i 1))

theorem packedLo_ix2 (A : Feat) (Wc : Wt2) (bc : Bias2) (r : Fin 10000) (q : Fin 128) :
    packedLo A Wc bc (ix2 r q) = packedAt A Wc bc r (lo q) := rfl
theorem packedHi_ix2 (A : Feat) (Wc : Wt2) (bc : Bias2) (r : Fin 10000) (q : Fin 128) :
    packedHi A Wc bc (ix2 r q) = packedAt A Wc bc r (hi q) := rfl

/-- When the packed matrix's low half is `W` and the packed bias's low half is `b`, the low columns are `A · W + b`. -/
theorem packedLo_eq_support (A : Feat) (Wc : Wt2) (bc : Bias2) (W : Wt) (b : Bias)
    (hW : ∀ (d q : Fin 128), Wc (ix2 d (lo q)) = W (ix2 d q)) (hb : ∀ q : Fin 128, bc (ix2 (0 : Fin 1) (lo q)) = b (ix1 q)) :
    packedLo A Wc bc = support A W b := by
  funext i
  obtain ⟨r, q, rfl⟩ : ∃ (r : Fin 10000) (q : Fin 128), i = ix2 r q := ⟨i 0, i 1, eq_ix2 i⟩
  show (∑ d : Fin 128, A (ix2 r d) * Wc (ix2 d (lo q))) + bc (ix2 (0 : Fin 1) (lo q)) = projAt A W r q + b (ix1 q)
  rw [hb q]
  exact congrArg (· + _) (Finset.sum_congr rfl fun d _ => by rw [hW d q])

/-- When the packed matrix's high half is `SW` and the packed bias's high half is zero, the high columns are `A · SW`. -/
theorem packedHi_eq_proj (A : Feat) (Wc : Wt2) (bc : Bias2) (SW : Wt)
    (hW : ∀ (d q : Fin 128), Wc (ix2 d (hi q)) = SW (ix2 d q)) (hb : ∀ q : Fin 128, bc (ix2 (0 : Fin 1) (hi q)) = 0) :
    packedHi A Wc bc = proj A SW := by
  funext i
  obtain ⟨r, q, rfl⟩ : ∃ (r : Fin 10000) (q : Fin 128), i = ix2 r q := ⟨i 0, i 1, eq_ix2 i⟩
  show (∑ d : Fin 128, A (ix2 r d) * Wc (ix2 d (hi q))) + bc (ix2 (0 : Fin 1) (hi q)) = projAt A SW r q
  rw [hb q, add_zero]
  exact Finset.sum_congr rfl fun d _ => by rw [hW d q]

end Cert.Hgcn

end
-- ==== Proof.StageA.lean ====
/-
  The first region: each of 5 grid points takes 2000 rows of the node features, the packed 128 × 256 weights and
  the packed 1 × 256 bias, forms `x · [W | SW] + [b | 0]` for those rows, and writes the low 128 columns to one
  output array and the high 128 columns to another. Row `p` of block `t` is row `2000·t + p` of the arrays and
  the 5 blocks tile the 10000 rows, so the two output arrays end holding the low and the high columns of the
  packed product of the arrays the region finds on entry.
-/
import proofs.«177763_g5179730559512_cont_sun_m_342_3_alg».proof.Proof.Gen.KernelIdeal.Frame
import proofs.«177763_g5179730559512_cont_sun_m_342_3_alg».proof.Proof.Packed
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.StageA

open Cert.KernelIdeal Cert.KernelIdeal.Gen Cert.Hgcn
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The packed product at an entry -/

theorem rowsProduct_lhs0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem rowsProduct_lhs1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem rowsProduct_rhs0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem rowsProduct_rhs1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A 2000 × 128 block against the 128 × 256 packed weights, into a zero accumulator, read at `(p, c)`: row `p` of the
    block against column `c` of the packed weights. -/
theorem rowsProduct_apply {φ₁ φ₂ : FTy} (l : FVec Ideal S2000x128 φ₁) (r : FVec Ideal S128x256 φ₂) (p : Fin 2000) (q : Fin 256) :
    matmul dot_S2000x128_S128x256_S2000x256_1_0_0_1_n_n none l r (constant S2000x256 .f32 0x00000000#32) (ix2 p q) = ∑ k : Fin 128, l (ix2 p k) * r (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact rowsProduct_lhs0 _ _
    | ⟨1, _⟩ => exact (rowsProduct_lhs1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rowsProduct_rhs0 _ _).trans hk
    | ⟨1, _⟩ => exact rowsProduct_rhs1 _ _)
  rw [el, er]

/-- The packed bias row broadcast to every row of the block reads the bias at the column. -/
theorem biasRows_apply (v : FVec Ideal S1x256 .f32) (p : Fin 2000) (c : Fin 256) :
    broadcastTo S2000x256 v broadcasts_S1x256_S2000x256 (ix2 p c) = v (ix2 (0 : Fin 1) c) :=
  broadcastTo_apply v broadcasts_S1x256_S2000x256 (ix2 p c) (ix2 (0 : Fin 1) c) (fun a => by
    match a with
    | ⟨0, _⟩ => rfl
    | ⟨1, _⟩ => rfl)

/-- The packed product with the packed bias, at `(p, c)`. -/
theorem packed_apply (x0 : Vec Ideal S2000x128 .f32) (x1 : Vec Ideal S128x256 .bf16) (x2 : Vec Ideal S1x256 .f32)
    (p : Fin 2000) (c : Fin 256) :
    k0_pay1 x0 x1 x2 (ix2 p c) = (∑ d : Fin 128, x0 (ix2 p d) * x1 (ix2 d c)) + x2 (ix2 (0 : Fin 1) c) := by
  unfold k0_pay1
  rw [shapeCast_self, shapeCast_self, addf_apply, rowsProduct_apply, biasRows_apply]
  rfl

/-- The low output's stored value at `(p, q)` is the packed product at column `q`. -/
theorem storedLo_apply (x0 : Vec Ideal S2000x128 .f32) (x1 : Vec Ideal S128x256 .bf16) (x2 : Vec Ideal S1x256 .f32)
    (p : Fin 2000) (q : Fin 128) : k0_pay2 x0 x1 x2 (ix2 p q) = k0_pay1 x0 x1 x2 (ix2 p (lo q)) := by
  unfold k0_pay2
  rw [truncf_apply]
  exact extractStridedSlice_apply _ _ _ (ix2 p q) (ix2 p (lo q)) (fun a => by
    match a with
    | ⟨0, _⟩ => show p.val = 0 + p.val; omega
    | ⟨1, _⟩ => show q.val = 0 + q.val; omega)

/-- The high output's stored value at `(p, q)` is the packed product at column `128 + q`. -/
theorem storedHi_apply (x0 : Vec Ideal S2000x128 .f32) (x1 : Vec Ideal S128x256 .bf16) (x2 : Vec Ideal S1x256 .f32)
    (p : Fin 2000) (q : Fin 128) : k0_pay3 x0 x1 x2 (ix2 p q) = k0_pay1 x0 x1 x2 (ix2 p (hi q)) := by
  unfold k0_pay3
  exact extractStridedSlice_apply _ _ _ (ix2 p q) (ix2 p (hi q)) (fun a => by
    match a with
    | ⟨0, _⟩ => show p.val = 0 + p.val; omega
    | ⟨1, _⟩ => show 128 + q.val = 128 + q.val; rfl)

/-! ## Blocks as rows of the arrays -/

variable (V : (c : Dev nD) → (b : Ref sig .tc) → Buf (Elt Ideal) ((c : Thread nD τ).loc b))

/-- The printed index maps over the 5 grid points: the feature block and both output blocks are block row `t`;
    the packed weights and the packed bias are taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The region's arrays on entry, at their literal types. -/
abbrev arrX (c : Dev nD) : Feat := V c main_arg0
abbrev arrW (c : Dev nD) : Wt2 := V c main_call0_v1
abbrev arrB (c : Dev nD) : Bias2 := V c main_call0_v6

/-- Row `p` of the feature block at point `t` is row `2000·t + p` of the features. -/
theorem blockX_apply (c : Dev nD) (t : Fin cfg0.N) (p : Fin 2000) (d : Fin 128) (r : Fin 10000) (hr : r.val = 2000 * t.val + p.val) :
    (iblk0 V c 0 t : Vec Ideal S2000x128 .f32) (ix2 p d) = arrX V c (ix2 r d) := by
  obtain ⟨e0, e1, -⟩ := idx_facts t
  show V c main_arg0 (((cfg0.win 0).blk t).view.emb (ix2 p d)) = V c main_arg0 (ix2 r d)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * d.val = d.val; omega

/-- The weights block is the whole packed weights. -/
theorem blockW_apply (c : Dev nD) (t : Fin cfg0.N) (d : Fin 128) (k : Fin 256) :
    (iblk0 V c 1 t : Vec Ideal S128x256 .bf16) (ix2 d k) = arrW V c (ix2 d k) := by
  obtain ⟨-, -, e0, e1, -⟩ := idx_facts t
  show V c main_call0_v1 (((cfg0.win 1).blk t).view.emb (ix2 d k)) = V c main_call0_v1 (ix2 d k)
  refine congrArg (V c main_call0_v1) (funext fun a => Fin.ext ?_)
  match a with
  | ⟨0, _⟩ => show win0_1.index t (0 : Fin 2) * 128 + 1 * d.val = d.val; omega
  | ⟨1, _⟩ => show win0_1.index t (1 : Fin 2) * 256 + 1 * k.val = k.val; omega

/-- The bias block is the whole packed bias. -/
theorem blockB_apply (c : Dev nD) (t : Fin cfg0.N) (k : Fin 256) :
    (iblk0 V c 2 t : Vec Ideal S1x256 .f32) (ix2 (0 : Fin 1) k) = arrB V c (ix2 (0 : Fin 1) k) := by
  obtain ⟨-, -, -, -, e0, e1, -⟩ := idx_facts t
  show V c main_call0_v6 (((cfg0.win 2).blk t).view.emb (ix2 (0 : Fin 1) k)) = V c main_call0_v6 (ix2 (0 : Fin 1) k)
  refine congrArg (V c main_call0_v6) (funext fun a => Fin.ext ?_)
  match a with
  | ⟨0, _⟩ => show win0_2.index t (0 : Fin 2) * 1 + 1 * 0 = 0; omega
  | ⟨1, _⟩ => show win0_2.index t (1 : Fin 2) * 256 + 1 * k.val = k.val; omega

/-- The packed product of the point's blocks at `(p, k)` is the packed product of the arrays at row `2000·t + p`. -/
theorem packed_blocks (c : Dev nD) (t : Fin cfg0.N) (p : Fin 2000) (k : Fin 256) (r : Fin 10000) (hr : r.val = 2000 * t.val + p.val) :
    k0_pay1 (iblk0 V c 0 t) (iblk0 V c 1 t) (iblk0 V c 2 t) (ix2 p k) = packedAt (arrX V c) (arrW V c) (arrB V c) r k := by
  rw [packed_apply, blockB_apply V c t k]
  refine congrArg (· + _) (Finset.sum_congr rfl fun d _ => ?_)
  rw [blockX_apply V c t p d r hr, blockW_apply V c t d k]

/-- What the body leaves at `(p, q)` of the low output's block at point `t`. -/
theorem outLo_apply (c : Dev nD) (t : Fin cfg0.N) (p : Fin 2000) (q : Fin 128) (r : Fin 10000) (hr : r.val = 2000 * t.val + p.val) :
    out0_3 (iblk0 V c 0 t) (iblk0 V c 1 t) (iblk0 V c 2 t) (ix2 p q) = packedLo (arrX V c) (arrW V c) (arrB V c) (ix2 r q) := by
  unfold out0_3
  rw [View.canon_unit_zero hz]
  simp only [View.ld_unit_zero (S := S2000x128) hz, View.ld_unit_zero (S := S128x256) hz, View.ld_unit_zero (S := S1x256) hz]
  rw [storedLo_apply, packedLo_ix2]
  exact packed_blocks V c t p (lo q) r hr

/-- What the body leaves at `(p, q)` of the high output's block at point `t`. -/
theorem outHi_apply (c : Dev nD) (t : Fin cfg0.N) (p : Fin 2000) (q : Fin 128) (r : Fin 10000) (hr : r.val = 2000 * t.val + p.val) :
    out0_4 (iblk0 V c 0 t) (iblk0 V c 1 t) (iblk0 V c 2 t) (ix2 p q) = packedHi (arrX V c) (arrW V c) (arrB V c) (ix2 r q) := by
  unfold out0_4
  rw [View.canon_unit_zero hz]
  simp only [View.ld_unit_zero (S := S2000x128) hz, View.ld_unit_zero (S := S128x256) hz, View.ld_unit_zero (S := S1x256) hz]
  rw [storedHi_apply, packedHi_ix2]
  exact packed_blocks V c t p (hi q) r hr

/-- WHAT POINT `t` WRITES BACK to the low output is block `t` of the low columns of the packed product. -/
theorem flushedLo_eq (c : Dev nD) (t : Fin cfg0.N) :
    (dat0 V c).flushed 3 t = ((cfg0.win 3).blk t).view.read (Elt Ideal) (packedLo (arrX V c) (arrW V c) (arrB V c)) := by
  show (cfg0.win 3).cut (grid0.coords t) ((dat0 V c).after 3 t) = _
  rw [after0_3]
  obtain ⟨-, -, -, -, -, -, e0, e1, -⟩ := idx_facts t
  funext j
  obtain ⟨p, q, rfl⟩ : ∃ (p : Fin 2000) (q : Fin 128), j = ix2 p q := ⟨j 0, j 1, eq_ix2 j⟩
  have hN : cfg0.N = 5 := N_0
  have ht := t.isLt
  refine (outLo_apply V c t p q ⟨2000 * t.val + p.val, by omega⟩ rfl).trans ?_
  show packedLo _ _ _ _ = packedLo _ _ _ (((cfg0.win 3).blk t).view.emb (ix2 p q))
  refine congrArg (packedLo (arrX V c) (arrW V c) (arrB V c)) (funext fun a => Fin.ext ?_)
  match a with
  | ⟨0, _⟩ => show 2000 * t.val + p.val = win0_3.index t (0 : Fin 2) * 2000 + 1 * p.val; omega
  | ⟨1, _⟩ => show q.val = win0_3.index t (1 : Fin 2) * 128 + 1 * q.val; omega

/-- WHAT POINT `t` WRITES BACK to the high output is block `t` of the high columns of the packed product. -/
theorem flushedHi_eq (c : Dev nD) (t : Fin cfg0.N) :
    (dat0 V c).flushed 4 t = ((cfg0.win 4).blk t).view.read (Elt Ideal) (packedHi (arrX V c) (arrW V c) (arrB V c)) := by
  show (cfg0.win 4).cut (grid0.coords t) ((dat0 V c).after 4 t) = _
  rw [after0_4]
  obtain ⟨-, -, -, -, -, -, -, -, e0, e1⟩ := idx_facts t
  funext j
  obtain ⟨p, q, rfl⟩ : ∃ (p : Fin 2000) (q : Fin 128), j = ix2 p q := ⟨j 0, j 1, eq_ix2 j⟩
  have hN : cfg0.N = 5 := N_0
  have ht := t.isLt
  refine (outHi_apply V c t p q ⟨2000 * t.val + p.val, by omega⟩ rfl).trans ?_
  show packedHi _ _ _ _ = packedHi _ _ _ (((cfg0.win 4).blk t).view.emb (ix2 p q))
  refine congrArg (packedHi (arrX V c) (arrW V c) (arrB V c)) (funext fun a => Fin.ext ?_)
  match a with
  | ⟨0, _⟩ => show 2000 * t.val + p.val = win0_4.index t (0 : Fin 2) * 2000 + 1 * p.val; omega
  | ⟨1, _⟩ => show q.val = win0_4.index t (1 : Fin 2) * 128 + 1 * q.val; omega

/-- An index of the low output is in point `t`'s block iff each coordinate is in the block's range on its axis. -/
theorem mem_blkLo (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_call0_v9_0).slice (win0_3.rect t)).set ↔ _
  rw [View.set_slice_whole, Rect.mem_set_unit]
  exact Iff.rfl

theorem mem_blkHi (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_call0_v9_1).slice (win0_4.rect t)).set ↔ _
  rw [View.set_slice_whole, Rect.mem_set_unit]
  exact Iff.rfl

/-- Every row of the low output is in the block of the point `row / 2000`. -/
theorem coveredLo (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 5 := N_0
  refine ⟨⟨(i 0).val / 2000, by omega⟩, flush0_3 _, ?_⟩
  rw [mem_blkLo]
  obtain ⟨-, -, -, -, -, -, e0, e1, -⟩ := idx_facts ⟨(i 0).val / 2000, by omega⟩
  intro a
  match a with
  | ⟨0, _⟩ => show win0_3.index _ (0 : Fin 2) * 2000 ≤ (i 0).val ∧ (i 0).val < win0_3.index _ (0 : Fin 2) * 2000 + 2000; rw [e0]; dsimp only; omega
  | ⟨1, _⟩ => show win0_3.index _ (1 : Fin 2) * 128 ≤ (i 1).val ∧ (i 1).val < win0_3.index _ (1 : Fin 2) * 128 + 128; rw [e1]; omega

theorem coveredHi (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 5 := N_0
  refine ⟨⟨(i 0).val / 2000, by omega⟩, flush0_4 _, ?_⟩
  rw [mem_blkHi]
  obtain ⟨-, -, -, -, -, -, -, -, e0, e1⟩ := idx_facts ⟨(i 0).val / 2000, by omega⟩
  intro a
  match a with
  | ⟨0, _⟩ => show win0_4.index _ (0 : Fin 2) * 2000 ≤ (i 0).val ∧ (i 0).val < win0_4.index _ (0 : Fin 2) * 2000 + 2000; rw [e0]; dsimp only; omega
  | ⟨1, _⟩ => show win0_4.index _ (1 : Fin 2) * 128 ≤ (i 1).val ∧ (i 1).val < win0_4.index _ (1 : Fin 2) * 128 + 128; rw [e1]; omega

/-- THE LOW OUTPUT ARRAY after the region: the low columns of the packed product of the entry arrays. -/
theorem finalLo (c : Dev nD) : (dat0 V c).arrAt 3 cfg0.N = packedLo (arrX V c) (arrW V c) (arrB V c) :=
  (dat0 V c).arrAt_eq_of_cover 3 _ (fun t _ => flushedLo_eq V c t) coveredLo

/-- THE HIGH OUTPUT ARRAY after the region: the high columns of the packed product of the entry arrays. -/
theorem finalHi (c : Dev nD) : (dat0 V c).arrAt 4 cfg0.N = packedHi (arrX V c) (arrW V c) (arrB V c) :=
  (dat0 V c).arrAt_eq_of_cover 4 _ (fun t _ => flushedHi_eq V c t) coveredHi

end Cert.KernelIdeal.StageA

end
-- ==== Proof.StageC.lean ====
/-
  The last region: each grid point takes 400 rows of the incidence matrix, the whole second-layer support and
  the matching 400 rows of the self-loop term, and writes 400 rows of `G · S + P`. Row `p` of block `t` is row
  `400·t + p` of the arrays, the 25 blocks tile the 10000 rows, so the output array ends holding the
  aggregation `conv G S P` of the arrays the region finds on entry — whatever those are.
-/
import proofs.«177763_g5179730559512_cont_sun_m_342_3_alg».proof.Proof.Gen.KernelIdeal.Frame
import proofs.«177763_g5179730559512_cont_sun_m_342_3_alg».proof.Proof.HgcnSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.StageC

open Cert.KernelIdeal Cert.KernelIdeal.Gen Cert.Hgcn
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The block product at an entry -/

theorem lhs0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs1 (i : S400x128.Idx) (q : dot_S400x10000_S10000x128_S400x128_1_0_0_1_n_n.contr.Idx) : (dot_S400x10000_S10000x128_S400x128_1_0_0_1_n_n.lhsIdx i q 1).val = (q ⟨0, by decide⟩).val :=
  dot_S400x10000_S10000x128_S400x128_1_0_0_1_n_n.lhsIdx_val_of_single rfl i q
theorem rhs0 (i : S400x128.Idx) (q : dot_S400x10000_S10000x128_S400x128_1_0_0_1_n_n.contr.Idx) : (dot_S400x10000_S10000x128_S400x128_1_0_0_1_n_n.rhsIdx i q 0).val = (q ⟨0, by decide⟩).val :=
  dot_S400x10000_S10000x128_S400x128_1_0_0_1_n_n.rhsIdx_val_of_single rfl i q
theorem rhs1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A 400 × 10000 block against a 10000 × 128 matrix, into a zero accumulator, read at `(p, q)`: row `p` of the
    block against column `q` of the matrix. -/
theorem blockProduct_apply (l : FVec Ideal S400x10000 .bf16) (r : FVec Ideal S10000x128 .bf16) (p : Fin 400) (q : Fin 128) :
    matmul dot_S400x10000_S10000x128_S400x128_1_0_0_1_n_n none l r (constant S400x128 .f32 0x00000000#32) (ix2 p q) = ∑ k : Fin 10000, l (ix2 p k) * r (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs0 _ _
    | ⟨1, _⟩ => exact (lhs1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs0 _ _).trans hk
    | ⟨1, _⟩ => exact rhs1 _ _)
  rw [el, er]

/-- What the body stores at `(p, q)`: row `p` of the incidence block against column `q` of the support, plus the
    self-loop block's entry. -/
theorem stored_apply (x0 : Vec Ideal S400x10000 .f32) (x1 : Vec Ideal S10000x128 .bf16) (x2 : Vec Ideal S400x128 .f32)
    (p : Fin 400) (q : Fin 128) :
    k2_pay1 x0 x1 x2 (ix2 p q) = (∑ k : Fin 10000, x0 (ix2 p k) * x1 (ix2 k q)) + x2 (ix2 p q) := by
  unfold k2_pay1
  rw [shapeCast_self, shapeCast_self, addf_apply, blockProduct_apply]
  rfl

/-! ## Blocks as rows of the arrays -/

variable (V : (c : Dev nD) → (b : Ref sig .tc) → Buf (Elt Ideal) ((c : Thread nD τ).loc b))

/-- The printed index maps over the 25 grid points: the incidence block, the self-loop block and the output block
    are all block row `t`; the support is taken whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The region's arrays on entry, at their literal types. -/
abbrev arrG (c : Dev nD) : Adj := V c main_arg1
abbrev arrS (c : Dev nD) : Feat := V c main_call0_v10_0
abbrev arrP (c : Dev nD) : Feat := V c main_call0_v10_1

/-- Row `p` of the incidence block at point `t` is row `400·t + p` of the incidence matrix. -/
theorem blockG_apply (c : Dev nD) (t : Fin cfg2.N) (p : Fin 400) (k : Fin 10000) (r : Fin 10000) (hr : r.val = 400 * t.val + p.val) :
    (iblk2 V c 0 t : Vec Ideal S400x10000 .f32) (ix2 p k) = arrG V c (ix2 r k) := by
  obtain ⟨e0, e1, -⟩ := idx_facts t
  show V c main_arg1 (((cfg2.win 0).blk t).view.emb (ix2 p k)) = V c main_arg1 (ix2 r k)
  refine congrArg (V c main_arg1) (funext fun a => Fin.ext ?_)
  match a with
  | ⟨0, _⟩ => show win2_0.index t (0 : Fin 2) * 400 + 1 * p.val = r.val; omega
  | ⟨1, _⟩ => show win2_0.index t (1 : Fin 2) * 10000 + 1 * k.val = k.val; omega

/-- The support block is the whole support array. -/
theorem blockS_apply (c : Dev nD) (t : Fin cfg2.N) (k : Fin 10000) (q : Fin 128) :
    (iblk2 V c 1 t : Vec Ideal S10000x128 .bf16) (ix2 k q) = arrS V c (ix2 k q) := by
  obtain ⟨-, -, e0, e1, -⟩ := idx_facts t
  show V c main_call0_v10_0 (((cfg2.win 1).blk t).view.emb (ix2 k q)) = V c main_call0_v10_0 (ix2 k q)
  refine congrArg (V c main_call0_v10_0) (funext fun a => Fin.ext ?_)
  match a with
  | ⟨0, _⟩ => show win2_1.index t (0 : Fin 2) * 10000 + 1 * k.val = k.val; omega
  | ⟨1, _⟩ => show win2_1.index t (1 : Fin 2) * 128 + 1 * q.val = q.val; omega

/-- Row `p` of the self-loop block at point `t` is row `400·t + p` of the self-loop array. -/
theorem blockP_apply (c : Dev nD) (t : Fin cfg2.N) (p : Fin 400) (q : Fin 128) (r : Fin 10000) (hr : r.val = 400 * t.val + p.val) :
    (iblk2 V c 2 t : Vec Ideal S400x128 .f32) (ix2 p q) = arrP V c (ix2 r q) := by
  obtain ⟨-, -, -, -, e0, e1, -⟩ := idx_facts t
  show V c main_call0_v10_1 (((cfg2.win 2).blk t).view.emb (ix2 p q)) = V c main_call0_v10_1 (ix2 r q)
  refine congrArg (V c main_call0_v10_1) (funext fun a => Fin.ext ?_)
  match a with
  | ⟨0, _⟩ => show win2_2.index t (0 : Fin 2) * 400 + 1 * p.val = r.val; omega
  | ⟨1, _⟩ => show win2_2.index t (1 : Fin 2) * 128 + 1 * q.val = q.val; omega

/-- What the body leaves at `(p, q)` of the output block at point `t` is the aggregation at row `400·t + p`. -/
theorem out_apply (c : Dev nD) (t : Fin cfg2.N) (p : Fin 400) (q : Fin 128) (r : Fin 10000) (hr : r.val = 400 * t.val + p.val) :
    out2_3 (iblk2 V c 0 t) (iblk2 V c 1 t) (iblk2 V c 2 t) (ix2 p q) = conv (arrG V c) (arrS V c) (arrP V c) (ix2 r q) := by
  unfold out2_3
  rw [View.canon_unit_zero hz]
  simp only [View.ld_unit_zero (S := S400x10000) hz, View.ld_unit_zero (S := S10000x128) hz, View.ld_unit_zero (S := S400x128) hz]
  rw [stored_apply, conv_ix2, blockP_apply V c t p q r hr]
  refine congrArg (· + _) (Finset.sum_congr rfl fun k _ => ?_)
  rw [blockG_apply V c t p k r hr, blockS_apply V c t k q]

/-- WHAT POINT `t` WRITES BACK is block `t` of the aggregation of the entry arrays. -/
theorem flushed_eq (c : Dev nD) (t : Fin cfg2.N) :
    (dat2 V c).flushed 3 t = ((cfg2.win 3).blk t).view.read (Elt Ideal) (conv (arrG V c) (arrS V c) (arrP V c)) := by
  show (cfg2.win 3).cut (grid2.coords t) ((dat2 V c).after 3 t) = _
  rw [after2_3]
  obtain ⟨-, -, -, -, -, -, e0, e1⟩ := idx_facts t
  funext j
  obtain ⟨p, q, rfl⟩ : ∃ (p : Fin 400) (q : Fin 128), j = ix2 p q := ⟨j 0, j 1, eq_ix2 j⟩
  have hN : cfg2.N = 25 := N_2
  have ht := t.isLt
  refine (out_apply V c t p q ⟨400 * t.val + p.val, by omega⟩ rfl).trans ?_
  show conv _ _ _ _ = conv _ _ _ (((cfg2.win 3).blk t).view.emb (ix2 p q))
  refine congrArg (conv (arrG V c) (arrS V c) (arrP V c)) (funext fun a => Fin.ext ?_)
  match a with
  | ⟨0, _⟩ => show 400 * t.val + p.val = win2_3.index t (0 : Fin 2) * 400 + 1 * p.val; omega
  | ⟨1, _⟩ => show q.val = win2_3.index t (1 : Fin 2) * 128 + 1 * q.val; omega

/-- An index of the output array is in point `t`'s block iff each coordinate is in the block's range on its axis. -/
theorem mem_blk (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v0).slice (win2_3.rect t)).set ↔ _
  rw [View.set_slice_whole, Rect.mem_set_unit]
  exact Iff.rfl

/-- Every row of the output is in the block of the point `row / 400`. -/
theorem covered (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  have hN : cfg2.N = 25 := N_2
  refine ⟨⟨(i 0).val / 400, by omega⟩, flush2_3 _, ?_⟩
  rw [mem_blk]
  obtain ⟨-, -, -, -, -, -, e0, e1⟩ := idx_facts ⟨(i 0).val / 400, by omega⟩
  intro a
  match a with
  | ⟨0, _⟩ => show win2_3.index _ (0 : Fin 2) * 400 ≤ (i 0).val ∧ (i 0).val < win2_3.index _ (0 : Fin 2) * 400 + 400; rw [e0]; dsimp only; omega
  | ⟨1, _⟩ => show win2_3.index _ (1 : Fin 2) * 128 ≤ (i 1).val ∧ (i 1).val < win2_3.index _ (1 : Fin 2) * 128 + 128; rw [e1]; omega

/-- THE OUTPUT ARRAY after the region: the aggregation of the arrays the region found on entry. -/
theorem final (c : Dev nD) : (dat2 V c).arrAt 3 cfg2.N = conv (arrG V c) (arrS V c) (arrP V c) :=
  (dat2 V c).arrAt_eq_of_cover 3 _ (fun t _ => flushed_eq V c t) covered

end Cert.KernelIdeal.StageC

end
-- ==== Proof.StageB.lean ====
/-
  The middle region: each of 25 grid points takes 400 rows of the incidence matrix, the whole first-layer
  support, the matching 400 rows of the first-layer self-loop term, the packed second-layer weights and bias.
  It forms the 400 rows of the hidden layer, `max (G · S + P, 0)`, without storing them, multiplies them by the
  packed weights, adds the packed bias, and writes the low 128 columns to one output array and the high 128
  columns to another. Row `p` of block `t` is row `400·t + p` of the arrays and the 25 blocks tile the 10000
  rows, so the two output arrays end holding the low and the high columns of the packed product of the hidden
  layer computed from the arrays the region finds on entry.
-/
import proofs.«177763_g5179730559512_cont_sun_m_342_3_alg».proof.Proof.Gen.KernelIdeal.Frame
import proofs.«177763_g5179730559512_cont_sun_m_342_3_alg».proof.Proof.Packed
import proofs.«177763_g5179730559512_cont_sun_m_342_3_alg».proof.Proof.StageC
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.StageB

open Cert.KernelIdeal Cert.KernelIdeal.Gen Cert.Hgcn
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body's arithmetic at an entry -/

theorem hiddenProduct_lhs0 (i : S400x256.Idx) (q : dot_S400x128_S128x256_S400x256_1_0_0_1_n_n.contr.Idx) : (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem hiddenProduct_lhs1 (i : S400x256.Idx) (q : dot_S400x128_S128x256_S400x256_1_0_0_1_n_n.contr.Idx) : (dot_S400x128_S128x256_S400x256_1_0_0_1_n_n.lhsIdx i q 1).val = (q ⟨0, by decide⟩).val :=
  dot_S400x128_S128x256_S400x256_1_0_0_1_n_n.lhsIdx_val_of_single rfl i q
theorem hiddenProduct_rhs0 (i : S400x256.Idx) (q : dot_S400x128_S128x256_S400x256_1_0_0_1_n_n.contr.Idx) : (dot_S400x128_S128x256_S400x256_1_0_0_1_n_n.rhsIdx i q 0).val = (q ⟨0, by decide⟩).val :=
  dot_S400x128_S128x256_S400x256_1_0_0_1_n_n.rhsIdx_val_of_single rfl i q
theorem hiddenProduct_rhs1 (i : S400x256.Idx) (q : dot_S400x128_S128x256_S400x256_1_0_0_1_n_n.contr.Idx) : (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-- The 400 × 128 hidden block against the 128 × 256 packed weights, into a zero accumulator, read at `(p, c)`: row `p`
    of the hidden block against column `c` of the packed weights. -/
theorem hiddenProduct_apply {φ₁ φ₂ : FTy} (l : FVec Ideal S400x128 φ₁) (r : FVec Ideal S128x256 φ₂) (p : Fin 400) (q : Fin 256) :
    matmul dot_S400x128_S128x256_S400x256_1_0_0_1_n_n none l r (constant S400x256 .f32 0x00000000#32) (ix2 p q) = ∑ k : Fin 128, l (ix2 p k) * r (ix2 k q) := by
  simp only [matmul]
  rw [Ideal.matmul_constant_zero_apply, ← Equiv.sum_comp (contrEquiv1 dot_S400x128_S128x256_S400x256_1_0_0_1_n_n 128 rfl rfl).symm]
  refine Finset.sum_congr rfl fun k _ => ?_
  have hk := contrEquiv1_symm_val dot_S400x128_S128x256_S400x256_1_0_0_1_n_n 128 rfl rfl k
  have el : dot_S400x128_S128x256_S400x256_1_0_0_1_n_n.lhsIdx (ix2 p q) ((contrEquiv1 dot_S400x128_S128x256_S400x256_1_0_0_1_n_n 128 rfl rfl).symm k) = ix2 p k := funext fun a => Fin.ext (by
    match a with
    | ⟨0, _⟩ => exact hiddenProduct_lhs0 _ _
    | ⟨1, _⟩ => exact (hiddenProduct_lhs1 _ _).trans hk)
  have er : dot_S400x128_S128x256_S400x256_1_0_0_1_n_n.rhsIdx (ix2 p q) ((contrEquiv1 dot_S400x128_S128x256_S400x256_1_0_0_1_n_n 128 rfl rfl).symm k) = ix2 k q := funext fun a => Fin.ext (by
    match a with
    | ⟨0, _⟩ => exact (hiddenProduct_rhs0 _ _).trans hk
    | ⟨1, _⟩ => exact hiddenProduct_rhs1 _ _)
  rw [el, er]

/-- The packed bias row broadcast to every row of the block reads the bias at the column. -/
theorem biasRows_apply (v : FVec Ideal S1x256 .f32) (p : Fin 400) (c : Fin 256) :
    broadcastTo S400x256 v broadcasts_S1x256_S400x256 (ix2 p c) = v (ix2 (0 : Fin 1) c) :=
  broadcastTo_apply v broadcasts_S1x256_S400x256 (ix2 p c) (ix2 (0 : Fin 1) c) (fun a => by
    match a with
    | ⟨0, _⟩ => rfl
    | ⟨1, _⟩ => rfl)

/-- The hidden layer's entry `(p, l)` from the point's blocks: row `p` of the incidence block against column `l` of the
    support, plus the self-loop block's entry, rectified. -/
def hiddenAt (x0 : Vec Ideal S400x10000 .f32) (x1 : Vec Ideal S10000x128 .bf16) (x2 : Vec Ideal S400x128 .f32)
    (p : Fin 400) (l : Fin 128) : EReal :=
  max ((∑ k : Fin 10000, x0 (ix2 p k) * x1 (ix2 k l)) + x2 (ix2 p l)) 0

/-- The packed product of the hidden block, with the packed bias, at `(p, c)`. -/
theorem packed_apply (x0 : Vec Ideal S400x10000 .f32) (x1 : Vec Ideal S10000x128 .bf16) (x2 : Vec Ideal S400x128 .f32)
    (x3 : Vec Ideal S128x256 .bf16) (x4 : Vec Ideal S1x256 .f32) (p : Fin 400) (c : Fin 256) :
    k1_pay1 x0 x1 x2 x3 x4 (ix2 p c) = (∑ l : Fin 128, hiddenAt x0 x1 x2 p l * x3 (ix2 l c)) + x4 (ix2 (0 : Fin 1) c) := by
  unfold k1_pay1
  simp only [shapeCast_self]
  rw [addf_apply, hiddenProduct_apply, biasRows_apply]
  refine congrArg (· + _) (Finset.sum_congr rfl fun l _ => ?_)
  rw [truncf_apply, maximumf_apply, addf_apply, StageC.blockProduct_apply, broadcast_apply]
  show max _ (Ideal.ofBits .f32 0x00000000#32) * _ = hiddenAt x0 x1 x2 p l * _
  rw [Ideal.ofBits_zero_f32]
  rfl

/-- The low output's stored value at `(p, q)` is the packed product at column `q`. -/
theorem storedLo_apply (x0 : Vec Ideal S400x10000 .f32) (x1 : Vec Ideal S10000x128 .bf16) (x2 : Vec Ideal S400x128 .f32)
    (x3 : Vec Ideal S128x256 .bf16) (x4 : Vec Ideal S1x256 .f32) (p : Fin 400) (q : Fin 128) :
    k1_pay2 x0 x1 x2 x3 x4 (ix2 p q) = k1_pay1 x0 x1 x2 x3 x4 (ix2 p (lo q)) := by
  unfold k1_pay2
  rw [truncf_apply]
  exact extractStridedSlice_apply _ _ _ (ix2 p q) (ix2 p (lo q)) (fun a => by
    match a with
    | ⟨0, _⟩ => show p.val = 0 + p.val; omega
    | ⟨1, _⟩ => show q.val = 0 + q.val; omega)

/-- The high output's stored value at `(p, q)` is the packed product at column `128 + q`. -/
theorem storedHi_apply (x0 : Vec Ideal S400x10000 .f32) (x1 : Vec Ideal S10000x128 .bf16) (x2 : Vec Ideal S400x128 .f32)
    (x3 : Vec Ideal S128x256 .bf16) (x4 : Vec Ideal S1x256 .f32) (p : Fin 400) (q : Fin 128) :
    k1_pay3 x0 x1 x2 x3 x4 (ix2 p q) = k1_pay1 x0 x1 x2 x3 x4 (ix2 p (hi q)) := by
  unfold k1_pay3
  exact extractStridedSlice_apply _ _ _ (ix2 p q) (ix2 p (hi q)) (fun a => by
    match a with
    | ⟨0, _⟩ => show p.val = 0 + p.val; omega
    | ⟨1, _⟩ => show 128 + q.val = 128 + q.val; rfl)

/-! ## Blocks as rows of the arrays -/

variable (V : (c : Dev nD) → (b : Ref sig .tc) → Buf (Elt Ideal) ((c : Thread nD τ).loc b))

/-- The incidence block is block row `t`. -/
theorem idxG : ∀ t : Fin cfg1.N, win1_0.index t (0 : Fin 2) = t.val ∧ win1_0.index t (1 : Fin 2) = 0 :=
  (by decide +kernel : ∀ t : Fin grid1.N, _)
/-- The support is taken whole. -/
theorem idxS : ∀ t : Fin cfg1.N, win1_1.index t (0 : Fin 2) = 0 ∧ win1_1.index t (1 : Fin 2) = 0 :=
  (by decide +kernel : ∀ t : Fin grid1.N, _)
/-- The self-loop block is block row `t`. -/
theorem idxP : ∀ t : Fin cfg1.N, win1_2.index t (0 : Fin 2) = t.val ∧ win1_2.index t (1 : Fin 2) = 0 :=
  (by decide +kernel : ∀ t : Fin grid1.N, _)
/-- The packed weights are taken whole. -/
theorem idxW : ∀ t : Fin cfg1.N, win1_3.index t (0 : Fin 2) = 0 ∧ win1_3.index t (1 : Fin 2) = 0 :=
  (by decide +kernel : ∀ t : Fin grid1.N, _)
/-- The packed bias is taken whole. -/
theorem idxB : ∀ t : Fin cfg1.N, win1_4.index t (0 : Fin 2) = 0 ∧ win1_4.index t (1 : Fin 2) = 0 :=
  (by decide +kernel : ∀ t : Fin grid1.N, _)
/-- The low output's block is block row `t`. -/
theorem idxLo : ∀ t : Fin cfg1.N, win1_5.index t (0 : Fin 2) = t.val ∧ win1_5.index t (1 : Fin 2) = 0 :=
  (by decide +kernel : ∀ t : Fin grid1.N, _)
/-- The high output's block is block row `t`. -/
theorem idxHi : ∀ t : Fin cfg1.N, win1_6.index t (0 : Fin 2) = t.val ∧ win1_6.index t (1 : Fin 2) = 0 :=
  (by decide +kernel : ∀ t : Fin grid1.N, _)

/-- The region's arrays on entry, at their literal types. -/
abbrev arrG (c : Dev nD) : Adj := V c main_arg1
abbrev arrS (c : Dev nD) : Feat := V c main_call0_v9_0
abbrev arrP (c : Dev nD) : Feat := V c main_call0_v9_1
abbrev arrW (c : Dev nD) : Wt2 := V c main_call0_v3
abbrev arrB (c : Dev nD) : Bias2 := V c main_call0_v8

/-- The hidden layer the region forms from its entry arrays. -/
abbrev arrH (c : Dev nD) : Feat := relu (conv (arrG V c) (arrS V c) (arrP V c))

/-- Row `p` of the incidence block at point `t` is row `400·t + p` of the incidence matrix. -/
theorem blockG_apply (c : Dev nD) (t : Fin cfg1.N) (p : Fin 400) (k : Fin 10000) (r : Fin 10000) (hr : r.val = 400 * t.val + p.val) :
    (iblk1 V c 0 t : Vec Ideal S400x10000 .f32) (ix2 p k) = arrG V c (ix2 r k) := by
  obtain ⟨e0, e1⟩ := idxG t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 400 + 1 * p.val = r.val; omega
  | ⟨1, _⟩ => show win1_0.index t (1 : Fin 2) * 10000 + 1 * k.val = k.val; omega

/-- The support block is the whole support array. -/
theorem blockS_apply (c : Dev nD) (t : Fin cfg1.N) (k : Fin 10000) (q : Fin 128) :
    (iblk1 V c 1 t : Vec Ideal S10000x128 .bf16) (ix2 k q) = arrS V c (ix2 k q) := by
  obtain ⟨e0, e1⟩ := idxS t
  show V c main_call0_v9_0 (((cfg1.win 1).blk t).view.emb (ix2 k q)) = V c main_call0_v9_0 (ix2 k q)
  refine congrArg (V c main_call0_v9_0) (funext fun a => Fin.ext ?_)
  match a with
  | ⟨0, _⟩ => show win1_1.index t (0 : Fin 2) * 10000 + 1 * k.val = k.val; omega
  | ⟨1, _⟩ => show win1_1.index t (1 : Fin 2) * 128 + 1 * q.val = q.val; omega

/-- Row `p` of the self-loop block at point `t` is row `400·t + p` of the self-loop array. -/
theorem blockP_apply (c : Dev nD) (t : Fin cfg1.N) (p : Fin 400) (q : Fin 128) (r : Fin 10000) (hr : r.val = 400 * t.val + p.val) :
    (iblk1 V c 2 t : Vec Ideal S400x128 .f32) (ix2 p q) = arrP V c (ix2 r q) := by
  obtain ⟨e0, e1⟩ := idxP t
  show V c main_call0_v9_1 (((cfg1.win 2).blk t).view.emb (ix2 p q)) = V c main_call0_v9_1 (ix2 r q)
  refine congrArg (V c main_call0_v9_1) (funext fun a => Fin.ext ?_)
  match a with
  | ⟨0, _⟩ => show win1_2.index t (0 : Fin 2) * 400 + 1 * p.val = r.val; omega
  | ⟨1, _⟩ => show win1_2.index t (1 : Fin 2) * 128 + 1 * q.val = q.val; omega

/-- The weights block is the whole packed weights. -/
theorem blockW_apply (c : Dev nD) (t : Fin cfg1.N) (d : Fin 128) (k : Fin 256) :
    (iblk1 V c 3 t : Vec Ideal S128x256 .bf16) (ix2 d k) = arrW V c (ix2 d k) := by
  obtain ⟨e0, e1⟩ := idxW t
  show V c main_call0_v3 (((cfg1.win 3).blk t).view.emb (ix2 d k)) = V c main_call0_v3 (ix2 d k)
  refine congrArg (V c main_call0_v3) (funext fun a => Fin.ext ?_)
  match a with
  | ⟨0, _⟩ => show win1_3.index t (0 : Fin 2) * 128 + 1 * d.val = d.val; omega
  | ⟨1, _⟩ => show win1_3.index t (1 : Fin 2) * 256 + 1 * k.val = k.val; omega

/-- The bias block is the whole packed bias. -/
theorem blockB_apply (c : Dev nD) (t : Fin cfg1.N) (k : Fin 256) :
    (iblk1 V c 4 t : Vec Ideal S1x256 .f32) (ix2 (0 : Fin 1) k) = arrB V c (ix2 (0 : Fin 1) k) := by
  obtain ⟨e0, e1⟩ := idxB t
  show V c main_call0_v8 (((cfg1.win 4).blk t).view.emb (ix2 (0 : Fin 1) k)) = V c main_call0_v8 (ix2 (0 : Fin 1) k)
  refine congrArg (V c main_call0_v8) (funext fun a => Fin.ext ?_)
  match a with
  | ⟨0, _⟩ => show win1_4.index t (0 : Fin 2) * 1 + 1 * 0 = 0; omega
  | ⟨1, _⟩ => show win1_4.index t (1 : Fin 2) * 256 + 1 * k.val = k.val; omega

/-- The hidden block's entry `(p, l)` at point `t` is the hidden layer at row `400·t + p`. -/
theorem hidden_blocks (c : Dev nD) (t : Fin cfg1.N) (p : Fin 400) (l : Fin 128) (r : Fin 10000) (hr : r.val = 400 * t.val + p.val) :
    hiddenAt (iblk1 V c 0 t) (iblk1 V c 1 t) (iblk1 V c 2 t) p l = arrH V c (ix2 r l) := by
  unfold hiddenAt
  show _ = relu (conv (arrG V c) (arrS V c) (arrP V c)) (ix2 r l)
  rw [relu_ix2, conv_ix2, blockP_apply V c t p l r hr]
  refine congrArg (fun z => max (z + _) 0) (Finset.sum_congr rfl fun k _ => ?_)
  rw [blockG_apply V c t p k r hr, blockS_apply V c t k l]

/-- The packed product of the point's blocks at `(p, k)` is the packed product of the hidden layer at row `400·t + p`. -/
theorem packed_blocks (c : Dev nD) (t : Fin cfg1.N) (p : Fin 400) (k : Fin 256) (r : Fin 10000) (hr : r.val = 400 * t.val + p.val) :
    k1_pay1 (iblk1 V c 0 t) (iblk1 V c 1 t) (iblk1 V c 2 t) (iblk1 V c 3 t) (iblk1 V c 4 t) (ix2 p k)
      = packedAt (arrH V c) (arrW V c) (arrB V c) r k := by
  rw [packed_apply, blockB_apply V c t k]
  refine congrArg (· + _) (Finset.sum_congr rfl fun l _ => ?_)
  rw [hidden_blocks V c t p l r hr, blockW_apply V c t l k]

/-- What the body leaves at `(p, q)` of the low output's block at point `t`. -/
theorem outLo_apply (c : Dev nD) (t : Fin cfg1.N) (p : Fin 400) (q : Fin 128) (r : Fin 10000) (hr : r.val = 400 * t.val + p.val) :
    out1_5 (iblk1 V c 0 t) (iblk1 V c 1 t) (iblk1 V c 2 t) (iblk1 V c 3 t) (iblk1 V c 4 t) (ix2 p q)
      = packedLo (arrH V c) (arrW V c) (arrB V c) (ix2 r q) := by
  unfold out1_5
  rw [View.canon_unit_zero hz]
  simp only [View.ld_unit_zero (S := S400x10000) hz, View.ld_unit_zero (S := S10000x128) hz, View.ld_unit_zero (S := S400x128) hz,
    View.ld_unit_zero (S := S128x256) hz, View.ld_unit_zero (S := S1x256) hz]
  rw [storedLo_apply, packedLo_ix2]
  exact packed_blocks V c t p (lo q) r hr

/-- What the body leaves at `(p, q)` of the high output's block at point `t`. -/
theorem outHi_apply (c : Dev nD) (t : Fin cfg1.N) (p : Fin 400) (q : Fin 128) (r : Fin 10000) (hr : r.val = 400 * t.val + p.val) :
    out1_6 (iblk1 V c 0 t) (iblk1 V c 1 t) (iblk1 V c 2 t) (iblk1 V c 3 t) (iblk1 V c 4 t) (ix2 p q)
      = packedHi (arrH V c) (arrW V c) (arrB V c) (ix2 r q) := by
  unfold out1_6
  rw [View.canon_unit_zero hz]
  simp only [View.ld_unit_zero (S := S400x10000) hz, View.ld_unit_zero (S := S10000x128) hz, View.ld_unit_zero (S := S400x128) hz,
    View.ld_unit_zero (S := S128x256) hz, View.ld_unit_zero (S := S1x256) hz]
  rw [storedHi_apply, packedHi_ix2]
  exact packed_blocks V c t p (hi q) r hr

/-- WHAT POINT `t` WRITES BACK to the low output is block `t` of the low columns of the packed product. -/
theorem flushedLo_eq (c : Dev nD) (t : Fin cfg1.N) :
    (dat1 V c).flushed 5 t = ((cfg1.win 5).blk t).view.read (Elt Ideal) (packedLo (arrH V c) (arrW V c) (arrB V c)) := by
  show (cfg1.win 5).cut (grid1.coords t) ((dat1 V c).after 5 t) = _
  rw [after1_5]
  obtain ⟨e0, e1⟩ := idxLo t
  funext j
  obtain ⟨p, q, rfl⟩ : ∃ (p : Fin 400) (q : Fin 128), j = ix2 p q := ⟨j 0, j 1, eq_ix2 j⟩
  have hN : cfg1.N = 25 := N_1
  have ht := t.isLt
  refine (outLo_apply V c t p q ⟨400 * t.val + p.val, by omega⟩ rfl).trans ?_
  show packedLo _ _ _ _ = packedLo _ _ _ (((cfg1.win 5).blk t).view.emb (ix2 p q))
  refine congrArg (packedLo (arrH V c) (arrW V c) (arrB V c)) (funext fun a => Fin.ext ?_)
  match a with
  | ⟨0, _⟩ => show 400 * t.val + p.val = win1_5.index t (0 : Fin 2) * 400 + 1 * p.val; omega
  | ⟨1, _⟩ => show q.val = win1_5.index t (1 : Fin 2) * 128 + 1 * q.val; omega

/-- WHAT POINT `t` WRITES BACK to the high output is block `t` of the high columns of the packed product. -/
theorem flushedHi_eq (c : Dev nD) (t : Fin cfg1.N) :
    (dat1 V c).flushed 6 t = ((cfg1.win 6).blk t).view.read (Elt Ideal) (packedHi (arrH V c) (arrW V c) (arrB V c)) := by
  show (cfg1.win 6).cut (grid1.coords t) ((dat1 V c).after 6 t) = _
  rw [after1_6]
  obtain ⟨e0, e1⟩ := idxHi t
  funext j
  obtain ⟨p, q, rfl⟩ : ∃ (p : Fin 400) (q : Fin 128), j = ix2 p q := ⟨j 0, j 1, eq_ix2 j⟩
  have hN : cfg1.N = 25 := N_1
  have ht := t.isLt
  refine (outHi_apply V c t p q ⟨400 * t.val + p.val, by omega⟩ rfl).trans ?_
  show packedHi _ _ _ _ = packedHi _ _ _ (((cfg1.win 6).blk t).view.emb (ix2 p q))
  refine congrArg (packedHi (arrH V c) (arrW V c) (arrB V c)) (funext fun a => Fin.ext ?_)
  match a with
  | ⟨0, _⟩ => show 400 * t.val + p.val = win1_6.index t (0 : Fin 2) * 400 + 1 * p.val; omega
  | ⟨1, _⟩ => show q.val = win1_6.index t (1 : Fin 2) * 128 + 1 * q.val; omega

/-- An index of the low output is in point `t`'s block iff each coordinate is in the block's range on its axis. -/
theorem mem_blkLo (t : Fin cfg1.N) (i : S10000x128.Idx) :
    i ∈ ((cfg1.win 5).blk t).view.set ↔ ∀ a : Fin 2, win1_5.index t a * S400x128.size a ≤ (i a).val ∧ (i a).val < win1_5.index t a * S400x128.size a + S400x128.size a := by
  show i ∈ ((View.whole main_call0_v10_0).slice (win1_5.rect t)).set ↔ _
  rw [View.set_slice_whole, Rect.mem_set_unit]
  exact Iff.rfl

theorem mem_blkHi (t : Fin cfg1.N) (i : S10000x128.Idx) :
    i ∈ ((cfg1.win 6).blk t).view.set ↔ ∀ a : Fin 2, win1_6.index t a * S400x128.size a ≤ (i a).val ∧ (i a).val < win1_6.index t a * S400x128.size a + S400x128.size a := by
  show i ∈ ((View.whole main_call0_v10_1).slice (win1_6.rect t)).set ↔ _
  rw [View.set_slice_whole, Rect.mem_set_unit]
  exact Iff.rfl

/-- Every row of the low output is in the block of the point `row / 400`. -/
theorem coveredLo (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 25 := N_1
  refine ⟨⟨(i 0).val / 400, by omega⟩, flush1_5 _, ?_⟩
  rw [mem_blkLo]
  obtain ⟨e0, e1⟩ := idxLo ⟨(i 0).val / 400, by omega⟩
  intro a
  match a with
  | ⟨0, _⟩ => show win1_5.index _ (0 : Fin 2) * 400 ≤ (i 0).val ∧ (i 0).val < win1_5.index _ (0 : Fin 2) * 400 + 400; rw [e0]; dsimp only; omega
  | ⟨1, _⟩ => show win1_5.index _ (1 : Fin 2) * 128 ≤ (i 1).val ∧ (i 1).val < win1_5.index _ (1 : Fin 2) * 128 + 128; rw [e1]; omega

theorem coveredHi (i : S10000x128.Idx) : ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 25 := N_1
  refine ⟨⟨(i 0).val / 400, by omega⟩, flush1_6 _, ?_⟩
  rw [mem_blkHi]
  obtain ⟨e0, e1⟩ := idxHi ⟨(i 0).val / 400, by omega⟩
  intro a
  match a with
  | ⟨0, _⟩ => show win1_6.index _ (0 : Fin 2) * 400 ≤ (i 0).val ∧ (i 0).val < win1_6.index _ (0 : Fin 2) * 400 + 400; rw [e0]; dsimp only; omega
  | ⟨1, _⟩ => show win1_6.index _ (1 : Fin 2) * 128 ≤ (i 1).val ∧ (i 1).val < win1_6.index _ (1 : Fin 2) * 128 + 128; rw [e1]; omega

/-- THE LOW OUTPUT ARRAY after the region: the low columns of the packed product of the hidden layer. -/
theorem finalLo (c : Dev nD) : (dat1 V c).arrAt 5 cfg1.N = packedLo (arrH V c) (arrW V c) (arrB V c) :=
  (dat1 V c).arrAt_eq_of_cover 5 _ (fun t _ => flushedLo_eq V c t) coveredLo

/-- THE HIGH OUTPUT ARRAY after the region: the high columns of the packed product of the hidden layer. -/
theorem finalHi (c : Dev nD) : (dat1 V c).arrAt 6 cfg1.N = packedHi (arrH V c) (arrW V c) (arrB V c) :=
  (dat1 V c).arrAt_eq_of_cover 6 _ (fun t _ => flushedHi_eq V c t) coveredHi

end Cert.KernelIdeal.StageB

end
-- ==== Proof.HostGlue.lean ====
/-
  The host operations before the first region only re-arrange the arguments: each pair of weight matrices is
  put side by side into one 128 × 256 matrix (and converted to the narrower float format, which changes no
  ideal value), each bias is reshaped to a row and padded on the right with 128 zeros. Read at a column of the
  low half the packed matrix is the first weight matrix and the packed row is the bias; at a column of the
  high half the packed matrix is the second weight matrix and the packed row is zero.
-/
import proofs.«177763_g5179730559512_cont_sun_m_342_3_alg».proof.Proof.Gen.KernelIdeal.Frame
import proofs.«177763_g5179730559512_cont_sun_m_342_3_alg».proof.Proof.Packed
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostGlue

open Cert.KernelIdeal Cert.KernelIdeal.Gen Cert.Hgcn
open Idealize.ShloMosaic Idealize.ShloMosaic.TcCoe Idealize.ShloMosaic.ValueIdx Idealize.SL.Sem Idealize.ShloMosaic.StableHlo

/-! ## Two matrices side by side, a bias padded with zeros: read at a column -/

/-- The packed weights: two square matrices side by side, converted to the narrower format. -/
abbrev packW (a b : FVec Ideal S128x128 .f32) : FVec Ideal S128x256 .bf16 :=
  truncf .bf16 (concatenate S128x256 1 [⟨S128x128, a⟩, ⟨S128x128, b⟩] concatenates_S128x128_S128x128_S128x256_d1) bitsLt_bf16_f32

/-- The packed bias: the bias as a row, then 128 zeros. -/
abbrev packB (bv : FVec Ideal S128 .f32) : FVec Ideal S1x256 .f32 :=
  concatenate S1x256 1 [⟨S1x128, shapeCast S1x128 bv shapeCasts_S128_S1x128⟩,
    ⟨S1x128, broadcastInDim S1x128 ![] bcast_S_S1x128 (constant (F := Ideal) S_ .f32 0x00000000#32)⟩] concatenates_S1x128_S1x128_S1x256_d1

theorem packW_lo (a b : FVec Ideal S128x128 .f32) (d q : Fin 128) : packW a b (ix2 d (lo q)) = a (ix2 d q) := by
  show (concatenate S128x256 1 [⟨S128x128, a⟩, ⟨S128x128, b⟩] concatenates_S128x128_S128x128_S128x256_d1) (ix2 d (lo q)) = _
  exact concatenate_pair_apply_left (1 : Fin 2) a b concatenates_S128x128_S128x128_S128x256_d1 (ix2 d (lo q)) rfl (ix2 d q)
    (fun e => by match e with | ⟨0, _⟩ => rfl | ⟨1, _⟩ => rfl)

theorem packW_hi (a b : FVec Ideal S128x128 .f32) (d q : Fin 128) : packW a b (ix2 d (hi q)) = b (ix2 d q) := by
  show (concatenate S128x256 1 [⟨S128x128, a⟩, ⟨S128x128, b⟩] concatenates_S128x128_S128x128_S128x256_d1) (ix2 d (hi q)) = _
  exact concatenate_pair_apply_right (1 : Fin 2) a b concatenates_S128x128_S128x128_S128x256_d1 (ix2 d (hi q)) rfl rfl (ix2 d q)
    (fun e he => by match e with | ⟨0, _⟩ => rfl | ⟨1, _⟩ => exact absurd (Fin.ext rfl) he)
    (by show q.val + 128 = 128 + q.val; omega)

theorem packB_lo (bv : FVec Ideal S128 .f32) (q : Fin 128) : packB bv (ix2 (0 : Fin 1) (lo q)) = bv (ix1 q) := by
  refine (concatenate_pair_apply_left (t := S1x256) (s₁ := S1x128) (s₂ := S1x128) (1 : Fin 2) _ _ concatenates_S1x128_S1x128_S1x256_d1 (ix2 (0 : Fin 1) (lo q)) rfl (ix2 (0 : Fin 1) q)
    (fun e => by match e with | ⟨0, _⟩ => rfl | ⟨1, _⟩ => rfl)).trans ?_
  refine shapeCast_apply bv shapeCasts_S128_S1x128 (ix2 (0 : Fin 1) q) (ix1 q) ?_
  rw [Shape.rowMajor_val_one, Shape.rowMajor_val_two]
  show q.val = 0 * 128 + q.val
  omega

theorem packB_hi (bv : FVec Ideal S128 .f32) (q : Fin 128) : packB bv (ix2 (0 : Fin 1) (hi q)) = 0 := by
  refine (concatenate_pair_apply_right (t := S1x256) (s₁ := S1x128) (s₂ := S1x128) (1 : Fin 2) _ _ concatenates_S1x128_S1x128_S1x256_d1 (ix2 (0 : Fin 1) (hi q)) rfl rfl (ix2 (0 : Fin 1) q)
    (fun e he => by match e with | ⟨0, _⟩ => rfl | ⟨1, _⟩ => exact absurd (Fin.ext rfl) he)
    (by show q.val + 128 = 128 + q.val; omega)).trans ?_
  refine (broadcastInDim_apply _ bcast_S_S1x128 _ (ix2 (0 : Fin 1) q) ix0 (fun e => e.elim0)).trans ?_
  show Ideal.ofBits .f32 0x00000000#32 = 0
  exact Ideal.ofBits_zero_f32

/-! ## What the host operations leave in their buffers -/

variable (m : (ℓ : Loc nD τ sig) → Buf (Elt Ideal) ℓ) (ρ : Dev nD → PrngReg)

/-- The first layer's packed weights are `[W₁ | SW₁]`. -/
theorem weights1 (c : Dev nD) : (W1 m ρ c (Proc.devRef .tc main_call0_v1) : S128x256.Idx → EReal)
    = packW (m ((c : Thread nD τ).loc main_arg2)) (m ((c : Thread nD τ).loc main_arg3)) := by
  dsimp only [W1, W0, hostOps0]; after_results; rfl

/-- The second layer's packed weights are `[W₂ | SW₂]`. -/
theorem weights2 (c : Dev nD) : (W1 m ρ c (Proc.devRef .tc main_call0_v3) : S128x256.Idx → EReal)
    = packW (m ((c : Thread nD τ).loc main_arg5)) (m ((c : Thread nD τ).loc main_arg6)) := by
  dsimp only [W1, W0, hostOps0]; after_results; rfl

/-- The first layer's packed bias is `[b₁ | 0]`. -/
theorem bias1 (c : Dev nD) : (W1 m ρ c (Proc.devRef .tc main_call0_v6) : S1x256.Idx → EReal)
    = packB (m ((c : Thread nD τ).loc main_arg4)) := by
  dsimp only [W1, W0, hostOps0]; after_results; rfl

/-- The second layer's packed bias is `[b₂ | 0]`. -/
theorem bias2 (c : Dev nD) : (W1 m ρ c (Proc.devRef .tc main_call0_v8) : S1x256.Idx → EReal)
    = packB (m ((c : Thread nD τ).loc main_arg7)) := by
  dsimp only [W1, W0, hostOps0]; after_results; rfl

/-- The node features are not written by the host operations. -/
theorem features (c : Dev nD) : W1 m ρ c (Proc.devRef .tc main_arg0) = m ((c : Thread nD τ).loc main_arg0) := by
  dsimp only [W1, W0, hostOps0]; after_results

/-- The incidence matrix is not written by the host operations. -/
theorem incidence (c : Dev nD) : W1 m ρ c (Proc.devRef .tc main_arg1) = m ((c : Thread nD τ).loc main_arg1) := by
  dsimp only [W1, W0, hostOps0]; after_results

end Cert.KernelIdeal.HostGlue

end
-- ==== Proof.KernelValue.lean ====
/-
  The kernel's result as one function of its arguments. Going backwards from the last boundary: the result
  array is what the last region's write-backs leave, the aggregation `G · S₂ + P₂` of the arrays that region
  finds; those are the incidence matrix, unchanged since launch, and the two arrays the middle region left, the
  low and high columns of `hidden · [W₂ | SW₂] + [b₂ | 0]`, where `hidden = max (G · S₁ + P₁, 0)` is formed from
  the two arrays the first region left, the low and high columns of `x · [W₁ | SW₁] + [b₁ | 0]`. Unpacking the
  columns (the low half is the weight matrix with its bias, the high half the self-loop matrix with zeros)
  gives the specification's `result` of the eight arguments.
-/
import proofs.«177763_g5179730559512_cont_sun_m_342_3_alg».proof.Proof.StageA
import proofs.«177763_g5179730559512_cont_sun_m_342_3_alg».proof.Proof.StageB
import proofs.«177763_g5179730559512_cont_sun_m_342_3_alg».proof.Proof.StageC
import proofs.«177763_g5179730559512_cont_sun_m_342_3_alg».proof.Proof.HostGlue

set_option maxRecDepth 16384

noncomputable section

namespace Cert.KernelIdeal.Whole

open Cert.KernelIdeal Cert.KernelIdeal.Gen Cert.Hgcn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The eight arguments at launch, at their literal types. -/
abbrev aX (c : Dev nD) : Feat := m ((c : Thread nD τ).loc main_arg0)
abbrev aG (c : Dev nD) : Adj := m ((c : Thread nD τ).loc main_arg1)
abbrev aW1 (c : Dev nD) : Wt := m ((c : Thread nD τ).loc main_arg2)
abbrev aSW1 (c : Dev nD) : Wt := m ((c : Thread nD τ).loc main_arg3)
abbrev ab1 (c : Dev nD) : Bias := m ((c : Thread nD τ).loc main_arg4)
abbrev aW2 (c : Dev nD) : Wt := m ((c : Thread nD τ).loc main_arg5)
abbrev aSW2 (c : Dev nD) : Wt := m ((c : Thread nD τ).loc main_arg6)
abbrev ab2 (c : Dev nD) : Bias := m ((c : Thread nD τ).loc main_arg7)

/-! ## After the first region -/

/-- The first region leaves the first layer's support in its low output. -/
theorem support1 (c : Dev nD) : (W2 m ρ c (Proc.devRef .tc main_call0_v9_0) : S10000x128.Idx → EReal)
    = support (aX m c) (aW1 m c) (ab1 m c) := by
  refine (W2_arr m ρ c 3).trans ((StageA.finalLo (V1 m ρ) c).trans ?_)
  show packedLo (W1 m ρ c (Proc.devRef .tc main_arg0)) (W1 m ρ c (Proc.devRef .tc main_call0_v1)) (W1 m ρ c (Proc.devRef .tc main_call0_v6)) = _
  rw [HostGlue.features, HostGlue.weights1, HostGlue.bias1]
  exact packedLo_eq_support _ _ _ _ _ (fun d q => HostGlue.packW_lo _ _ d q) (fun q => HostGlue.packB_lo _ q)

/-- The first region leaves the first layer's self-loop term in its high output. -/
theorem selfLoop1 (c : Dev nD) : (W2 m ρ c (Proc.devRef .tc main_call0_v9_1) : S10000x128.Idx → EReal)
    = proj (aX m c) (aSW1 m c) := by
  refine (W2_arr m ρ c 4).trans ((StageA.finalHi (V1 m ρ) c).trans ?_)
  show packedHi (W1 m ρ c (Proc.devRef .tc main_arg0)) (W1 m ρ c (Proc.devRef .tc main_call0_v1)) (W1 m ρ c (Proc.devRef .tc main_call0_v6)) = _
  rw [HostGlue.features, HostGlue.weights1, HostGlue.bias1]
  exact packedHi_eq_proj _ _ _ _ (fun d q => HostGlue.packW_hi _ _ d q) (fun q => HostGlue.packB_hi _ q)

/-- The first region does not write the incidence matrix. -/
theorem incidence2 (c : Dev nD) : (W2 m ρ c (Proc.devRef .tc main_arg1) : S10000x10000.Idx → EReal) = aG m c :=
  (W2_of_ne m ρ c main_arg1 (by decide)).trans (HostGlue.incidence m ρ c)

/-- … nor the second layer's packed weights and bias. -/
theorem weights2 (c : Dev nD) : (W2 m ρ c (Proc.devRef .tc main_call0_v3) : S128x256.Idx → EReal)
    = HostGlue.packW (aW2 m c) (aSW2 m c) :=
  (W2_of_ne m ρ c main_call0_v3 (by decide)).trans (HostGlue.weights2 m ρ c)
theorem bias2 (c : Dev nD) : (W2 m ρ c (Proc.devRef .tc main_call0_v8) : S1x256.Idx → EReal)
    = HostGlue.packB (ab2 m c) :=
  (W2_of_ne m ρ c main_call0_v8 (by decide)).trans (HostGlue.bias2 m ρ c)

/-! ## After the middle region -/

/-- The hidden layer the middle region forms is the specification's. -/
theorem hidden2 (c : Dev nD) : StageB.arrH (V2 m ρ) c = hidden (aX m c) (aG m c) (aW1 m c) (aSW1 m c) (ab1 m c) := by
  show relu (conv (W2 m ρ c (Proc.devRef .tc main_arg1)) (W2 m ρ c (Proc.devRef .tc main_call0_v9_0)) (W2 m ρ c (Proc.devRef .tc main_call0_v9_1))) = _
  rw [incidence2, support1, selfLoop1]
  rfl

/-- The middle region leaves the second layer's support in its low output. -/
theorem support2 (c : Dev nD) : (W3 m ρ c (Proc.devRef .tc main_call0_v10_0) : S10000x128.Idx → EReal)
    = support (hidden (aX m c) (aG m c) (aW1 m c) (aSW1 m c) (ab1 m c)) (aW2 m c) (ab2 m c) := by
  refine (W3_arr m ρ c 5).trans ((StageB.finalLo (V2 m ρ) c).trans ?_)
  rw [hidden2]
  show packedLo _ (W2 m ρ c (Proc.devRef .tc main_call0_v3)) (W2 m ρ c (Proc.devRef .tc main_call0_v8)) = _
  rw [weights2, bias2]
  exact packedLo_eq_support _ _ _ _ _ (fun d q => HostGlue.packW_lo _ _ d q) (fun q => HostGlue.packB_lo _ q)

/-- The middle region leaves the second layer's self-loop term in its high output. -/
theorem selfLoop2 (c : Dev nD) : (W3 m ρ c (Proc.devRef .tc main_call0_v10_1) : S10000x128.Idx → EReal)
    = proj (hidden (aX m c) (aG m c) (aW1 m c) (aSW1 m c) (ab1 m c)) (aSW2 m c) := by
  refine (W3_arr m ρ c 6).trans ((StageB.finalHi (V2 m ρ) c).trans ?_)
  rw [hidden2]
  show packedHi _ (W2 m ρ c (Proc.devRef .tc main_call0_v3)) (W2 m ρ c (Proc.devRef .tc main_call0_v8)) = _
  rw [weights2, bias2]
  exact packedHi_eq_proj _ _ _ _ (fun d q => HostGlue.packW_hi _ _ d q) (fun q => HostGlue.packB_hi _ q)

/-- The middle region reads the incidence matrix through an input window and leaves it as it was. -/
theorem incidence3 (c : Dev nD) : (W3 m ρ c (Proc.devRef .tc main_arg1) : S10000x10000.Idx → EReal) = aG m c :=
  ((W3_arr m ρ c 0).trans (((dat1 (V2 m ρ) c).arrAt_in 0 rfl _).trans (A_eq1 (V2 m ρ) c 0))).trans (incidence2 m ρ c)

/-! ## After the last region -/

/-- THE RESULT ARRAY after the run is the specification's result of the eight arguments. -/
theorem result_eq (c : Dev nD) : (W4 m ρ c (Proc.devRef .tc main_v0) : S10000x128.Idx → EReal)
    = result (aX m c) (aG m c) (aW1 m c) (aSW1 m c) (ab1 m c) (aW2 m c) (aSW2 m c) (ab2 m c) := by
  refine (W4_arr m ρ c 3).trans ((StageC.final (V3 m ρ) c).trans ?_)
  show conv (W3 m ρ c (Proc.devRef .tc main_arg1)) (W3 m ρ c (Proc.devRef .tc main_call0_v10_0)) (W3 m ρ c (Proc.devRef .tc main_call0_v10_1)) = _
  rw [incidence3, support2, selfLoop2]
  rfl

end Cert.KernelIdeal.Whole

end
-- ==== Proof.ReferenceIsSpec.lean ====
/-
  The reference computes the specification. Its run is a chain of fourteen host operations; read one
  operation at a time, each matrix product is the sum over its contracted axis of the left operand's row
  against the right operand's column, each bias is broadcast along the rows, and the rectifier is the
  maximum with a zero splat. Identifying the operations' index maps with indices built from coordinates
  turns each stage into the corresponding function of the specification, and the stages compose.
-/
import proofs.«177763_g5179730559512_cont_sun_m_342_3_alg».proof.Proof.Gen.ReferenceIdeal.Read
import proofs.«177763_g5179730559512_cont_sun_m_342_3_alg».proof.Proof.HgcnSpec

noncomputable section

open scoped BigOperators

namespace Cert.ReferenceIdeal.IsSpec

open Cert.ReferenceIdeal Cert.ReferenceIdeal.Read Idealize.ShloMosaic Idealize.ShloMosaic.ValueIdx Cert.Hgcn

/-! ## The operations' index maps, by coordinates -/

theorem lidx0 (i : S10000x128.Idx) (k : Fin 128) : lidx_main_v0 i k = ix2 (i 0) k :=
  funext fun a => by match a with | ⟨0, _⟩ => rfl | ⟨1, _⟩ => rfl
theorem ridx0 (i : S10000x128.Idx) (k : Fin 128) : ridx_main_v0 i k = ix2 k (i 1) :=
  funext fun a => by match a with | ⟨0, _⟩ => rfl | ⟨1, _⟩ => rfl
theorem lidx5 (i : S10000x128.Idx) (k : Fin 128) : lidx_main_v5 i k = ix2 (i 0) k :=
  funext fun a => by match a with | ⟨0, _⟩ => rfl | ⟨1, _⟩ => rfl
theorem ridx5 (i : S10000x128.Idx) (k : Fin 128) : ridx_main_v5 i k = ix2 k (i 1) :=
  funext fun a => by match a with | ⟨0, _⟩ => rfl | ⟨1, _⟩ => rfl
theorem lidx8 (i : S10000x128.Idx) (k : Fin 128) : lidx_main_v8 i k = ix2 (i 0) k :=
  funext fun a => by match a with | ⟨0, _⟩ => rfl | ⟨1, _⟩ => rfl
theorem ridx8 (i : S10000x128.Idx) (k : Fin 128) : ridx_main_v8 i k = ix2 k (i 1) :=
  funext fun a => by match a with | ⟨0, _⟩ => rfl | ⟨1, _⟩ => rfl
theorem lidx13 (i : S10000x128.Idx) (k : Fin 128) : lidx_main_v13 i k = ix2 (i 0) k :=
  funext fun a => by match a with | ⟨0, _⟩ => rfl | ⟨1, _⟩ => rfl
theorem ridx13 (i : S10000x128.Idx) (k : Fin 128) : ridx_main_v13 i k = ix2 k (i 1) :=
  funext fun a => by match a with | ⟨0, _⟩ => rfl | ⟨1, _⟩ => rfl
theorem lidx4 (i : S10000x128.Idx) (k : Fin 10000) : lidx_main_v4 i k = ix2 (i 0) k :=
  funext fun a => by match a with | ⟨0, _⟩ => rfl | ⟨1, _⟩ => rfl
theorem ridx4 (i : S10000x128.Idx) (k : Fin 10000) : ridx_main_v4 i k = ix2 k (i 1) :=
  funext fun a => by match a with | ⟨0, _⟩ => rfl | ⟨1, _⟩ => rfl
theorem lidx12 (i : S10000x128.Idx) (k : Fin 10000) : lidx_main_v12 i k = ix2 (i 0) k :=
  funext fun a => by match a with | ⟨0, _⟩ => rfl | ⟨1, _⟩ => rfl
theorem ridx12 (i : S10000x128.Idx) (k : Fin 10000) : ridx_main_v12 i k = ix2 k (i 1) :=
  funext fun a => by match a with | ⟨0, _⟩ => rfl | ⟨1, _⟩ => rfl
/-- A bias broadcast to a row and then to every row is read at the column. -/
theorem bidx1 (i : S10000x128.Idx) : idx_main_v1 (idx_main_v2 i) = ix1 (i 1) :=
  funext fun a => by match a with | ⟨0, _⟩ => rfl
theorem bidx9 (i : S10000x128.Idx) : idx_main_v9 (idx_main_v10 i) = ix1 (i 1) :=
  funext fun a => by match a with | ⟨0, _⟩ => rfl

/-! ## The stages -/

variable (x0 : (⟨S10000x128, .f32⟩ : BufTy).Contents (Elt Ideal)) (x1 : (⟨S10000x10000, .f32⟩ : BufTy).Contents (Elt Ideal))
  (x2 x3 : (⟨S128x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))

/-- The first layer's support: `x · W₁ + b₁`. -/
theorem stage3 : val_main_v3 (F := Ideal) x0 x2 x4 = support x0 x2 x4 := by
  funext i
  rw [val_main_v3_apply, val_main_v0_apply, val_main_v2_apply, val_main_v1_apply]
  simp only [lidx0, ridx0, bidx1]
  rfl

/-- The first layer's self-loop term: `x · SW₁`. -/
theorem stage5 : val_main_v5 (F := Ideal) x0 x3 = proj x0 x3 := by
  funext i
  rw [val_main_v5_apply]
  simp only [lidx5, ridx5]
  rfl

/-- The first layer before the rectifier: `G · support₁ + x · SW₁`. -/
theorem stage6 : val_main_v6 (F := Ideal) x0 x1 x2 x3 x4 = conv x1 (support x0 x2 x4) (proj x0 x3) := by
  funext i
  rw [val_main_v6_apply, val_main_v4_apply, stage3, stage5]
  simp only [lidx4, ridx4]
  rfl

/-- The first layer's output. -/
theorem stage7 : val_main_v7 (F := Ideal) x0 x1 x2 x3 x4 = hidden x0 x1 x2 x3 x4 := by
  funext i
  rw [val_main_v7_apply, stage6, val_main_call0_v0_apply, val_main_call0_cst_apply]
  show max _ (Ideal.ofBits .f32 0x00000000#32) = max _ 0
  rw [Ideal.ofBits_zero_f32]

/-- The second layer's support: `hidden · W₂ + b₂`. -/
theorem stage11 : val_main_v11 (F := Ideal) x0 x1 x2 x3 x4 x5 x7 = support (hidden x0 x1 x2 x3 x4) x5 x7 := by
  funext i
  rw [val_main_v11_apply, val_main_v8_apply, val_main_v10_apply, val_main_v9_apply, stage7]
  simp only [lidx8, ridx8, bidx9]
  rfl

/-- The second layer's self-loop term: `hidden · SW₂`. -/
theorem stage13 : val_main_v13 (F := Ideal) x0 x1 x2 x3 x4 x6 = proj (hidden x0 x1 x2 x3 x4) x6 := by
  funext i
  rw [val_main_v13_apply, stage7]
  simp only [lidx13, ridx13]
  rfl

/-- The reference's result is the specification's. -/
theorem stage14 : val_main_v14 (F := Ideal) x0 x1 x2 x3 x4 x5 x6 x7 = result x0 x1 x2 x3 x4 x5 x6 x7 := by
  funext i
  rw [val_main_v14_apply, val_main_v12_apply, stage11, stage13]
  simp only [lidx12, ridx12]
  rfl

end Cert.ReferenceIdeal.IsSpec

end
-- ==== Proof.lean ====
/-
  The two-layer dense hypergraph convolution: a kernel of three pipelined regions against its plain reference,
  equal on the extended reals.

  Both programs compute, for node features `x`, a dense incidence matrix `G`, weights `W₁, SW₁, W₂, SW₂` and
  biases `b₁, b₂`,

      hidden = max (G · (x · W₁ + b₁) + x · SW₁, 0),      result = G · (hidden · W₂ + b₂) + hidden · SW₂.

  The reference does so in fourteen host operations. The kernel packs each pair of weights side by side and
  each bias beside a row of zeros, and runs three regions: the first forms `x · [W₁ | SW₁] + [b₁ | 0]` in
  2000-row blocks and splits the columns into the first layer's support and self-loop term; the second takes
  400-row blocks of `G`, forms the hidden rows, multiplies them by `[W₂ | SW₂]`, adds `[b₂ | 0]` and splits again;
  the third takes 400-row blocks of `G` once more and forms the result rows. At the ideal instance a change of
  float format is the identity, a product into a zero accumulator is the plain sum over the contracted axis, a
  block row is a row of the array, the blocks tile the rows, and the padded zeros add nothing: the two results
  are the same function of the eight arguments, index by index. No step needs the inputs to be finite, so the
  precondition is never opened. The idealization rewrote no operation, so it preserves the kernel trivially.
-/
import proofs.«177763_g5179730559512_cont_sun_m_342_3_alg».proof.Defs
import proofs.«177763_g5179730559512_cont_sun_m_342_3_alg».proof.Proof.Gen.Kernel
import proofs.«177763_g5179730559512_cont_sun_m_342_3_alg».proof.Proof.Gen.Kernel.Skeleton
import proofs.«177763_g5179730559512_cont_sun_m_342_3_alg».proof.Proof.Gen.Kernel.Launch
import proofs.«177763_g5179730559512_cont_sun_m_342_3_alg».proof.Proof.Gen.Kernel.Points
import proofs.«177763_g5179730559512_cont_sun_m_342_3_alg».proof.Proof.Gen.Kernel.Frame
import proofs.«177763_g5179730559512_cont_sun_m_342_3_alg».proof.Proof.Gen.KernelIdeal
import proofs.«177763_g5179730559512_cont_sun_m_342_3_alg».proof.Proof.Gen.KernelIdeal.Skeleton
import proofs.«177763_g5179730559512_cont_sun_m_342_3_alg».proof.Proof.Gen.KernelIdeal.Launch
import proofs.«177763_g5179730559512_cont_sun_m_342_3_alg».proof.Proof.Gen.KernelIdeal.Points
import proofs.«177763_g5179730559512_cont_sun_m_342_3_alg».proof.Proof.Gen.KernelIdeal.Frame
import proofs.«177763_g5179730559512_cont_sun_m_342_3_alg».proof.Proof.Gen.ReferenceIdeal
import proofs.«177763_g5179730559512_cont_sun_m_342_3_alg».proof.Proof.Gen.Pre_finite_inputs
import proofs.«177763_g5179730559512_cont_sun_m_342_3_alg».proof.Proof.Gen.ReferenceIdeal.Run
import proofs.«177763_g5179730559512_cont_sun_m_342_3_alg».proof.Proof.Gen.ReferenceIdeal.Read
import proofs.«177763_g5179730559512_cont_sun_m_342_3_alg».proof.Proof.KernelRun
import proofs.«177763_g5179730559512_cont_sun_m_342_3_alg».proof.Proof.KernelValue
import proofs.«177763_g5179730559512_cont_sun_m_342_3_alg».proof.Proof.ReferenceIsSpec
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the specification's result of those arguments:
    the kernel by its three regions read back to the arguments, the reference by its fourteen stages. -/
theorem algebraic : Cert.algebraic_KernelIdeal_ReferenceIdeal := by
  intro m ρ m' ρ' _ hagree
  refine ⟨fun c => Cert.Hgcn.result (Cert.KernelIdeal.Whole.aX m c) (Cert.KernelIdeal.Whole.aG m c)
      (Cert.KernelIdeal.Whole.aW1 m c) (Cert.KernelIdeal.Whole.aSW1 m c) (Cert.KernelIdeal.Whole.ab1 m c)
      (Cert.KernelIdeal.Whole.aW2 m c) (Cert.KernelIdeal.Whole.aSW2 m c) (Cert.KernelIdeal.Whole.ab2 m c), ?_, ?_⟩
  · exact (θ_run Cert.KernelIdeal.defs _ _).mono
      (fun r h c => ⟨(h c).1.trans (Cert.KernelIdeal.Whole.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.ReferenceIdeal.IsSpec.stage14]
    obtain ⟨h0, h1, h2, h3, h4, h5, h6, h7⟩ := hagree c
    rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
